-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x768 : Shape := ⟨3, ![64, 1024, 768]⟩
abbrev S768x768 : Shape := ⟨2, ![768, 768]⟩
abbrev S_ : Shape := ⟨0, ![]⟩

class Facts : Prop where
  bcast_S_S64x1024x768 : S_.BroadcastsInDim S64x1024x768 (![] : Fin 0 → Fin S64x1024x768.rank)
  reducesTo_S64x1024x768_S_d0_1_2 : S64x1024x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn {F : FTy → Type} [FloatOps F] (main_arg0 : FVec F S64x1024x768 .f32) (main_arg1 : FVec F S768x768 .f32) : IVec S_ 1 :=
  let main_v0 : FVec F S64x1024x768 .f32 := Host.absf main_arg0
  let main_cst : FVec F S_ .f32 := constant S_ .f32 0x7F800000#32
  let main_v1 : FVec F S64x1024x768 .f32 := broadcastInDim S64x1024x768 ![] bcast_S_S64x1024x768 main_cst
  let main_v2 : IVec S64x1024x768 1 := cmpf .olt main_v0 main_v1
  let main_c : IVec S_ 1 := constantI S_ 1 1#1
  let main_v3 : IVec S_ 1 := (fun x v => Host.reduce IntOp.andi x v reducesTo_S64x1024x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  main_v8
-- ==== Kernel.lean ====
abbrev S64x1024x768 : Shape := ⟨3, ![64, 1024, 768]⟩
abbrev S768x768 : Shape := ⟨2, ![768, 768]⟩
abbrev S64x1024x1024 : Shape := ⟨3, ![64, 1024, 1024]⟩
abbrev S1x1024x768 : Shape := ⟨3, ![1, 1024, 768]⟩
abbrev S1x1024x1024 : Shape := ⟨3, ![1, 1024, 1024]⟩
abbrev S1024x768 : Shape := ⟨2, ![1024, 768]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩

abbrev nBuf : Space → Nat
  | .hbm => 5
  | .vmem => 5
  | .smem => 0
  | _ => 0

abbrev bufTy : (tb : Table) → Fin (tcTables nBuf tb) → BufTy
  | .hbm, ⟨0, _⟩ => ⟨S64x1024x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S64x1024x1024, .f32⟩
  | .local _ .vmem, ⟨0, _⟩ => ⟨S1x1024x768, .f32⟩
  | .local _ .vmem, ⟨1, _⟩ => ⟨S1x1024x768, .f32⟩
  | .local _ .vmem, ⟨2, _⟩ => ⟨S768x768, .f32⟩
  | .local _ .vmem, ⟨3, _⟩ => ⟨S1x1024x1024, .f32⟩
  | .local _ .vmem, ⟨4, _⟩ => ⟨S1x1024x1024, .f32⟩
  | _, _ => ⟨S64x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S768x768_S768x768_1_0 : S768x768.Transposes [1, 0] S768x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  reduces_S1024x768_S1024 : S1024x768.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x768_S768x768_S1024x768_1_0_0_1_n_n_wf : DotDims.WF S1024x768 S768x768 S1024x768 [1] [0] [0] [1] [] []
  dot_S1024x768_S1024x768_S1024x1024_1_1_0_0_n_n_wf : DotDims.WF S1024x768 S1024x768 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S64x1024x768.size a
  hwx0_0 : ∀ i : grid0.Coords, EltTy.bits .f32 = 32 ∨ (Rect.block (s := S64x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S64x1024x1024.size a
  hwx0_2 : ∀ i : grid0.Coords, EltTy.bits .f32 = 32 ∨ (Rect.block (s := S64x1024x1024) S1x1024x1024.size (cc0_transform_2 i) (hinb0_2 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x768_S1024x768_S1024x1024_1_1_0_0_n_n : DotDims S1024x768 S1024x768 S1024x1024 where
  lhsContracting := [1]
  rhsContracting := [1]
  lhsNonContracting := [0]
  rhsNonContracting := [0]
  lhsBatch := []
  rhsBatch := []
  wf := dot_S1024x768_S1024x768_S1024x1024_1_1_0_0_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1024x768 : Shape := ⟨3, ![64, 1024, 768]⟩
abbrev S768x768 : Shape := ⟨2, ![768, 768]⟩
abbrev S64x1024x1024 : Shape := ⟨3, ![64, 1024, 1024]⟩
abbrev S1024x1024 : Shape := ⟨2, ![1024, 1024]⟩
abbrev S_ : Shape := ⟨0, ![]⟩
abbrev S64x1024 : Shape := ⟨2, ![64, 1024]⟩
abbrev S64x1024x1 : Shape := ⟨3, ![64, 1024, 1]⟩
abbrev S64x1x1024 : Shape := ⟨3, ![64, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S64x1024x768, .f32⟩
  | .hbm, ⟨1, _⟩ => ⟨S768x768, .f32⟩
  | .hbm, ⟨2, _⟩ => ⟨S64x1024x768, .f32⟩
  | .hbm, ⟨3, _⟩ => ⟨S64x1024x1024, .f32⟩
  | .hbm, ⟨4, _⟩ => ⟨S1024x1024, .i32⟩
  | .hbm, ⟨5, _⟩ => ⟨S1024x1024, .i32⟩
  | .hbm, ⟨6, _⟩ => ⟨S1024x1024, .i1⟩
  | .hbm, ⟨7, _⟩ => ⟨S64x1024x1024, .i1⟩
  | .hbm, ⟨8, _⟩ => ⟨S_, .f32⟩
  | .hbm, ⟨9, _⟩ => ⟨S64x1024x1024, .f32⟩
  | .hbm, ⟨10, _⟩ => ⟨S64x1024x1024, .f32⟩
  | .hbm, ⟨11, _⟩ => ⟨S_, .f32⟩
  | .hbm, ⟨12, _⟩ => ⟨S64x1024, .f32⟩
  | .hbm, ⟨13, _⟩ => ⟨S64x1024x1, .f32⟩
  | .hbm, ⟨14, _⟩ => ⟨S64x1x1024, .f32⟩
  | .hbm, ⟨15, _⟩ => ⟨S64x1024x1024, .f32⟩
  | .hbm, ⟨16, _⟩ => ⟨S64x1024x1024, .f32⟩
  | .hbm, ⟨17, _⟩ => ⟨S64x1024x1024, .f32⟩
  | .hbm, ⟨18, _⟩ => ⟨S64x1024x1024, .f32⟩
  | .hbm, ⟨19, _⟩ => ⟨S64x1024x1024, .f32⟩
  | .hbm, ⟨20, _⟩ => ⟨S64x1024x1024, .f32⟩
  | _, _ => ⟨S64x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  bcast_S1024x1024_S64x1024x1024_1_2 : S1024x1024.BroadcastsInDim S64x1024x1024 (![1, 2] : Fin 2 → Fin S64x1024x1024.rank)
  bcast_S_S64x1024x1024 : S_.BroadcastsInDim S64x1024x1024 (![] : Fin 0 → Fin S64x1024x1024.rank)
  reducesTo_S64x1024x1024_S64x1024_d1 : S64x1024x1024.ReducesTo [1] S64x1024
  h_S_ : 0 < S_.numel
  bcast_S64x1024_S64x1024x1_0_1 : S64x1024.BroadcastsInDim S64x1024x1 (![0, 1] : Fin 2 → Fin S64x1024x1.rank)
  bcast_S64x1024_S64x1x1024_0_2 : S64x1024.BroadcastsInDim S64x1x1024 (![0, 2] : Fin 2 → Fin S64x1x1024.rank)
  bcast_S64x1024x1_S64x1024x1024_0_1_2 : S64x1024x1.BroadcastsInDim S64x1024x1024 (![0, 1, 2] : Fin 3 → Fin S64x1024x1024.rank)
  bcast_S64x1x1024_S64x1024x1024_0_1_2 : S64x1x1024.BroadcastsInDim S64x1024x1024 (![0, 1, 2] : Fin 3 → Fin S64x1024x1024.rank)
  transposes_S64x1024x1024_S64x1024x1024_0_2_1 : S64x1024x1024.Transposes [0, 2, 1] S64x1024x1024
  dot_S64x1024x768_S768x768_S64x1024x768_2_0_01_1_n_n_wf : DotDims.WF S64x1024x768 S768x768 S64x1024x768 [2] [0] [0, 1] [1] [] []
  dot_S64x1024x768_S64x1024x768_S64x1024x1024_2_2_1_1_0_0_wf : DotDims.WF S64x1024x768 S64x1024x768 S64x1024x1024 [2] [2] [1] [1] [0] [0]

variable [Facts₀]

def dot_S64x1024x768_S768x768_S64x1024x768_2_0_01_1_n_n : DotDims S64x1024x768 S768x768 S64x1024x768 where
  lhsContracting := [2]
  rhsContracting := [0]
  lhsNonContracting := [0, 1]
  rhsNonContracting := [1]
  lhsBatch := []
  rhsBatch := []
  wf := dot_S64x1024x768_S768x768_S64x1024x768_2_0_01_1_n_n_wf
def dot_S64x1024x768_S64x1024x768_S64x1024x1024_2_2_1_1_0_0 : DotDims S64x1024x768 S64x1024x768 S64x1024x1024 where
  lhsContracting := [2]
  rhsContracting := [2]
  lhsNonContracting := [1]
  rhsNonContracting := [1]
  lhsBatch := [0]
  rhsBatch := [0]
  wf := dot_S64x1024x768_S64x1024x768_S64x1024x1024_2_2_1_1_0_0_wf

class Facts : Prop extends Facts₀ where

variable [Facts]
-- ==== Proof.Spec.lean ====
/-
  The two formulas for the pairwise bilinear form, stated once over abstract finite index types.

  A family of rows r i (i ranging over positions, coordinates over κ) and a square matrix A on κ give
  cross i j = Σ e (Σ d r i d · A d e) · r j e, the bilinear form r i ᵀ A r j. The pairwise form is
  D i j = cross i i + cross j j − cross i j − cross j i; the diagonal entry cross j j is written as a masked sum
  0 + Σ i (if i = j then cross i j else 0), the way a sum over an identity mask picks it.

  The other formula symmetrises first: with S = A + Aᵀ, q i d = Σ e r i e · S e d, it takes
  ½ Σ d q i d · r i d for each of the two rows, subtracts Σ d q i d · r j d, and puts 0 on the diagonal.
-/
import Idealize.ShloMosaic.PureOps.Ideal
import Idealize.ShloMosaic.PureOps.Ideal.Laws
import Idealize.ShloMosaic.Lib.ValueIdx

noncomputable section

namespace Cert.PairForm

open Idealize.ShloMosaic

variable {ι κ : Type} [Fintype ι] [DecidableEq ι] [Fintype κ]

/-- One half, as an extended real. -/
def half : EReal := ((1 / 2 : ℝ) : EReal)

section symmetrised
variable (r : ι → κ → EReal) (S : κ → κ → EReal)

/-- Row i times the matrix S. -/
def qrow (i : ι) (d : κ) : EReal := ∑ e : κ, r i e * S e d
/-- Half the quadratic form of row i under S. -/
def halfQuad (i : ι) : EReal := half * ∑ d : κ, qrow r S i d * r i d
/-- The bilinear form of rows i and j under S. -/
def kcross (i j : ι) : EReal := ∑ d : κ, qrow r S i d * r j d
/-- The symmetrised formula, zero on the diagonal. -/
def kerDist (i j : ι) : EReal := if i = j then 0 else halfQuad r S i + halfQuad r S j - kcross r S i j
end symmetrised

section expanded
variable (r : ι → κ → EReal) (A : κ → κ → EReal)

/-- Row i times the matrix A. -/
def proj (i : ι) (e : κ) : EReal := ∑ d : κ, r i d * A d e
/-- The bilinear form of rows i and j under A. -/
def cross (i j : ι) : EReal := ∑ e : κ, proj r A i e * r j e
/-- The diagonal entry cross j j, as a sum over an identity mask. -/
def quad (j : ι) : EReal := 0 + ∑ i : ι, if i = j then cross r A i j else 0
/-- The expanded formula. -/
def refDist (i j : ι) : EReal := quad r A i + quad r A j - cross r A i j - cross r A j i
end expanded

/-- The single-precision word 0x3F000000 denotes one half. -/
theorem half_word : Ideal.ofBits .f32 0x3F000000#32 = half := by
  unfold half
  simp [Ideal.ofBits, Ideal.ieee, -EReal.coe_mul]; norm_num

/-- Two positions below 2^32 have equal 32-bit words exactly when they are equal. -/
theorem cmpi_eq_one_iff {n : ℕ} (hn : n ≤ 4294967296) (i j : Fin n) :
    IntOp.cmpi .eq (BitVec.ofNat 32 i.val) (BitVec.ofNat 32 j.val) = 1 ↔ i = j := by
  have hi : i.val < 4294967296 := lt_of_lt_of_le i.isLt hn
  have hj : j.val < 4294967296 := lt_of_lt_of_le j.isLt hn
  show BitVec.ofBool (BitVec.ofNat 32 i.val == BitVec.ofNat 32 j.val) = 1 ↔ i = j
  by_cases h : i = j
  · subst h
    rw [beq_self_eq_true]
    exact ⟨fun _ => rfl, fun _ => rfl⟩
  · have hne : BitVec.ofNat 32 i.val ≠ BitVec.ofNat 32 j.val := by
      intro e
      have := congrArg BitVec.toNat e
      simp only [BitVec.toNat_ofNat] at this
      rw [Nat.mod_eq_of_lt hi, Nat.mod_eq_of_lt hj] at this
      exact h (Fin.ext this)
    rw [beq_eq_false_iff_ne.2 hne]
    exact ⟨fun e => absurd e (by decide), fun e => absurd e h⟩

/-- A select on the equality of two position words is a choice on the equality of the positions. -/
theorem select_cmpi_eq {α : Type} {n : ℕ} (hn : n ≤ 4294967296) (i j : Fin n) (a b : α) :
    Scalar.select (IntOp.cmpi .eq (BitVec.ofNat 32 i.val) (BitVec.ofNat 32 j.val)) a b = if i = j then a else b := by
  unfold Scalar.select
  by_cases h : i = j
  · rw [if_pos ((cmpi_eq_one_iff hn i j).2 h), if_pos h]
  · rw [if_neg (fun e => h ((cmpi_eq_one_iff hn i j).1 e)), if_neg h]

end Cert.PairForm

end
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.LibLayoutRead.lean ====
/-
  Layout operations read at explicit coordinates, for the shapes a row-wise normalisation meets.

  A keepdims row statistic lives in a column [a, 1]: it is made from a vector [a] by a shape cast and spread
  back over the b lanes of its row by a broadcast; a parameter vector [b] becomes a row [1, b] and is spread
  over the rows. On the host the same happens one rank up, on [n, g, 1] and [n, g, b], and a matrix [n, g*b] is
  re-read as [n, g, b] by its row-major position p*b + j. Each lemma names the ONE operand element an output element
  reads, with every index written by the literal-size constructors ix1, ix2, ix3.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LayoutRead

open Idealize.ShloMosaic Idealize.ShloMosaic.ValueIdx

variable {α : Type}

/-! ## Rank 2: a column of row statistics -/

/-- A vector [a] cast to the column [a, 1] reads, at (r, u), the vector at r. -/
theorem cast_col {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] broadcast over b lanes reads, at (r, j), the column at row r. -/
theorem bcast_col {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The lane sum of a matrix, at row r, is the sum of that row (at the extended reals). -/
theorem rowsum {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (funext fun ax => by
      match ax with
      | ⟨0, _⟩ => rfl
      | ⟨1, _⟩ => rfl))

/-! ## The host's forms: broadcast_in_dim, the rank-3 view of the four gates, the host sum -/

/-- A coordinate is what a broadcast asks of it: itself, or zero when its axis has one element. -/
theorem unit_or (n : ℕ) (j : Fin n) : j.val = if n = 1 then 0 else j.val := by
  split
  · have := j.isLt; omega
  · rfl

/-- A rank-zero value broadcast to any shape reads its one element everywhere. -/
theorem bcast_scalar {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector [n] as the row [1, n]. -/
theorem bid_row {n : ℕ} (x : (⟨1, ![n]⟩ : Shape).Idx → α) (h : (⟨1, ![n]⟩ : Shape).BroadcastsInDim ⟨2, ![1, n]⟩ ![1])
    (u : Fin 1) (j : Fin n) : broadcastInDim ⟨2, ![1, n]⟩ ![1] h x (ix2 u j) = x (ix1 j) :=
  broadcastInDim_apply _ h x _ _ fun a => by
    match a with
    | ⟨0, _⟩ => exact unit_or n j

/-- A row [1, n] spread over m rows. -/
theorem bid_rows {m n : ℕ} (x : (⟨2, ![1, n]⟩ : Shape).Idx → α) (h : (⟨2, ![1, n]⟩ : Shape).BroadcastsInDim ⟨2, ![m, n]⟩ ![0, 1])
    (b : Fin m) (j : Fin n) : broadcastInDim ⟨2, ![m, n]⟩ ![0, 1] h x (ix2 b j) = x (ix2 (0 : Fin 1) j) :=
  broadcastInDim_apply _ h x _ _ fun a => by
    match a with
    | ⟨0, _⟩ => rfl
    | ⟨1, _⟩ => exact unit_or n j

/-- A vector [m] as the column [m, 1]. -/
theorem bid_col {m : ℕ} (x : (⟨1, ![m]⟩ : Shape).Idx → α) (h : (⟨1, ![m]⟩ : Shape).BroadcastsInDim ⟨2, ![m, 1]⟩ ![0])
    (b : Fin m) (u : Fin 1) : broadcastInDim ⟨2, ![m, 1]⟩ ![0] h x (ix2 b u) = x (ix1 b) :=
  broadcastInDim_apply _ h x _ _ fun a => by
    match a with
    | ⟨0, _⟩ => exact unit_or m b

/-- A column [m, 1] spread over n lanes. -/
theorem bid_cols {m n : ℕ} (x : (⟨2, ![m, 1]⟩ : Shape).Idx → α) (h : (⟨2, ![m, 1]⟩ : Shape).BroadcastsInDim ⟨2, ![m, n]⟩ ![0, 1])
    (b : Fin m) (j : Fin n) : broadcastInDim ⟨2, ![m, n]⟩ ![0, 1] h x (ix2 b j) = x (ix2 b (0 : Fin 1)) :=
  broadcastInDim_apply _ h x _ _ fun a => by
    match a with
    | ⟨0, _⟩ => exact unit_or m b
    | ⟨1, _⟩ => rfl

/-- A matrix [m, g] of per-gate statistics as [m, g, 1]. -/
theorem bid_stat {m g : ℕ} (x : (⟨2, ![m, g]⟩ : Shape).Idx → α) (h : (⟨2, ![m, g]⟩ : Shape).BroadcastsInDim ⟨3, ![m, g, 1]⟩ ![0, 1])
    (b : Fin m) (p : Fin g) (u : Fin 1) : broadcastInDim ⟨3, ![m, g, 1]⟩ ![0, 1] h x (ix3 b p u) = x (ix2 b p) :=
  broadcastInDim_apply _ h x _ _ fun a => by
    match a with
    | ⟨0, _⟩ => exact unit_or m b
    | ⟨1, _⟩ => exact unit_or g p

/-- Per-gate statistics [m, g, 1] spread over the n lanes of each gate. -/
theorem bid_stats {m g n : ℕ} (x : (⟨3, ![m, g, 1]⟩ : Shape).Idx → α)
    (h : (⟨3, ![m, g, 1]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 b p (0 : Fin 1)) :=
  broadcastInDim_apply _ h x _ _ fun a => by
    match a with
    | ⟨0, _⟩ => exact unit_or m b
    | ⟨1, _⟩ => exact unit_or g p
    | ⟨2, _⟩ => rfl

/-- The per-gate parameters [g, n] as [1, g, n]. -/
theorem bid_par {g n : ℕ} (x : (⟨2, ![g, n]⟩ : Shape).Idx → α) (h : (⟨2, ![g, n]⟩ : Shape).BroadcastsInDim ⟨3, ![1, g, n]⟩ ![1, 2])
    (u : Fin 1) (p : Fin g) (j : Fin n) : broadcastInDim ⟨3, ![1, g, n]⟩ ![1, 2] h x (ix3 u p j) = x (ix2 p j) :=
  broadcastInDim_apply _ h x _ _ fun a => by
    match a with
    | ⟨0, _⟩ => exact unit_or g p
    | ⟨1, _⟩ => exact unit_or n j

/-- The per-gate parameters [1, g, n] spread over m rows. -/
theorem bid_pars {m g n : ℕ} (x : (⟨3, ![1, g, n]⟩ : Shape).Idx → α)
    (h : (⟨3, ![1, g, n]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 (0 : Fin 1) p j) :=
  broadcastInDim_apply _ h x _ _ fun a => by
    match a with
    | ⟨0, _⟩ => rfl
    | ⟨1, _⟩ => exact unit_or g p
    | ⟨2, _⟩ => exact unit_or n j

/-- The four gates' pre-activations [m, 4096] re-read as [m, 4, 1024]: gate p, lane j is column 1024 p + j. -/
theorem cast_gates {m : ℕ} (x : (⟨2, ![m, 4096]⟩ : Shape).Idx → α) (h : (⟨2, ![m, 4096]⟩ : Shape).ShapeCasts ⟨3, ![m, 4, 1024]⟩)
    (b : Fin m) (p : Fin 4) (j : Fin 1024) (k : Fin 4096) (hk : k.val = 1024 * p.val + j.val) :
    shapeCast ⟨3, ![m, 4, 1024]⟩ x h (ix3 b p j) = x (ix2 b k) :=
  shapeCast_apply x h _ _ (by
    rw [Shape.rowMajor_val_two, Shape.rowMajor_val_three]
    show b.val * 4096 + k.val = (b.val * 4 + p.val) * 1024 + j.val
    omega)

/-- One gate cut out of [m, 4, n] keeps its row and lane. -/
theorem slice_gate {m n : ℕ} (o : ℕ) (x : (⟨3, ![m, 4, n]⟩ : Shape).Idx → α)
    (h : (⟨3, ![m, 4, n]⟩ : Shape).Slices ![0, o, 0] ⟨3, ![m, 1, n]⟩) (b : Fin m) (u : Fin 1) (j : Fin n) (p : Fin 4)
    (hp : p.val = o) : extractStridedSlice ⟨3, ![m, 1, n]⟩ ![0, o, 0] x h (ix3 b u j) = x (ix3 b p j) :=
  slice3_axis1_apply o x h b u j p (by have := u.isLt; omega)

/-- The cut gate [m, 1, n] as a matrix [m, n]. -/
theorem cast_gate {m n : ℕ} (x : (⟨3, ![m, 1, n]⟩ : Shape).Idx → α) (h : (⟨3, ![m, 1, n]⟩ : Shape).ShapeCasts ⟨2, ![m, n]⟩)
    (b : Fin m) (j : Fin n) : shapeCast ⟨2, ![m, n]⟩ x h (ix2 b j) = x (ix3 b (0 : Fin 1) j) :=
  shapeCast_apply x h _ _ (by
    rw [Shape.rowMajor_val_two, Shape.rowMajor_val_three]
    show (b.val * 1 + 0) * n + j.val = b.val * n + j.val
    rw [Nat.mul_one, Nat.add_zero])

/-- The host's sum over the lanes of each gate: the initial value plus the sum of the gate's lanes. -/
theorem hostsum_gate {m g n : ℕ} (x : FVec Ideal ⟨3, ![m, g, n]⟩ .f32) (init : (⟨0, ![]⟩ : Shape).Idx → Ideal .f32)
    (h' : (⟨3, ![m, g, n]⟩ : Shape).ReducesTo [2] ⟨2, ![m, g]⟩) (h : (⟨3, ![m, g, n]⟩ : Shape).Reduces [2] ⟨2, ![m, g]⟩)
    (hu : 0 < (⟨0, ![]⟩ : Shape).numel) (b : Fin m) (p : Fin g) :
    Host.reduceAdd x init h' hu (ix2 b p) = init ix0 + ∑ k : Fin n, x (ix3 b p k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl
  | ⟨2, _⟩ => rfl

/-- The host's sum over the lanes of a matrix row. -/
theorem hostsum_row {m n : ℕ} (x : FVec Ideal ⟨2, ![m, n]⟩ .f32) (init : (⟨0, ![]⟩ : Shape).Idx → Ideal .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (b : Fin m) :
    Host.reduceAdd x init h' hu (ix1 b) = init ix0 + ∑ k : Fin n, x (ix2 b k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl

end Cert.LayoutRead

end
-- ==== Proof.PayRead.lean ====
/-
  The value the kernel body stores, read at one index.

  The body multiplies the block of rows r (1024 positions, 768 coordinates) by the matrix S, giving q i d = Σ e r i e · S e d;
  takes for each row half of Σ d q i d · r i d; takes the products Σ d q i d · r j d of every pair of rows; and writes
  half-quad i + half-quad j − pair i j off the diagonal and zero on it. Each operation that moves values around (a
  re-reading of a block under another shape, a matrix product, a sum along a row, a column spread over a square, a
  diagonal mask) is read here at explicit coordinates, and the pieces are put together at the end.
-/
import proofs.«145885_j4148938408316_2_alg».proof.Proof.Spec
import proofs.«145885_j4148938408316_2_alg».proof.Proof.Gen.KernelIdeal.Skeleton
import proofs.«145885_j4148938408316_2_alg».proof.Proof.LibDotRead
import proofs.«145885_j4148938408316_2_alg».proof.Proof.LibLayoutRead
import Idealize.ShloMosaic.Lib.ValueIdx
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

variable {α : Type}

/-! ## Re-readings of a block under another shape -/

/-- The block [1, 1024, 768] read as the matrix [1024, 768]: entry (i, d) is the block's (0, i, d). -/
theorem cast_block (x : S1x1024x768.Idx → α) (h : S1x1024x768.ShapeCasts S1024x768) (i : Fin 1024) (d : Fin 768) :
    shapeCast S1024x768 x h (ix2 i d) = x (ix3 (0 : Fin 1) i d) :=
  shapeCast_apply x h _ _ (by
    rw [Shape.rowMajor_val_two, Shape.rowMajor_val_three]
    show (0 * 1024 + i.val) * 768 + d.val = i.val * 768 + d.val
    omega)

/-- The square [1024, 1024] stored as the block [1, 1024, 1024]: the block's (0, i, j) is the square's (i, j). -/
theorem cast_out (x : S1024x1024.Idx → α) (h : S1024x1024.ShapeCasts S1x1024x1024) (i j : Fin 1024) :
    shapeCast S1x1024x1024 x h (ix3 (0 : Fin 1) i j) = x (ix2 i j) :=
  shapeCast_apply x h _ _ (by
    rw [Shape.rowMajor_val_two, Shape.rowMajor_val_three]
    show i.val * 1024 + j.val = (0 * 1024 + i.val) * 1024 + j.val
    omega)

/-- The column [1024, 1] turned into the row [1, 1024]: the row's entry j is the column's entry j. -/
theorem transpose_col (x : S1024x1.Idx → α) (h : S1024x1.Transposes [1, 0] S1x1024) (u : Fin 1) (j : Fin 1024) :
    transpose S1x1024 [1, 0] x h (ix2 u j) = x (ix2 j (0 : Fin 1)) :=
  transpose_apply [1, 0] x h _ _ fun b => by
    match b with
    | ⟨0, _⟩ =>
      show (0 : ℕ) = u.val
      have := u.isLt
      omega
    | ⟨1, _⟩ => rfl

/-- The row [1, 1024] spread over 1024 rows: entry (i, j) is the row's entry j. -/
theorem bcast_row (v : S1x1024.Idx → α) (h : S1x1024.Broadcasts S1024x1024) (i j : Fin 1024) :
    broadcastTo S1024x1024 v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if (1024 : ℕ) = 1 then 0 else j.val
    rw [if_neg (by decide)]

/-- The position counter along the rows reads the row's number. -/
theorem iota_row (h : S1024x1024.Iotas .tc 32 [0]) (i j : Fin 1024) :
    iota .tc S1024x1024 32 [0] h (ix2 i j) = BitVec.ofNat 32 i.val :=
  iota_single_apply .tc S1024x1024 32 0 h (ix2 i j)

/-- The position counter along the columns reads the column's number. -/
theorem iota_col (h : S1024x1024.Iotas .tc 32 [1]) (i j : Fin 1024) :
    iota .tc S1024x1024 32 [1] h (ix2 i j) = BitVec.ofNat 32 j.val :=
  iota_single_apply .tc S1024x1024 32 1 h (ix2 i j)

/-! ## The two matrix products -/

/-- The first product's record is a plain rows-by-contraction times contraction-by-columns product. -/
theorem plain_first : Cert.DotRead.Plain dot_S1024x768_S768x768_S1024x768_1_0_0_1_n_n where
  rank := rfl
  size := rfl
  lhs0 := fun i q => by
    unfold DotDims.lhsIdx
    rw [dif_neg (show ¬(0 : Fin S1024x768.rank) ∈ dot_S1024x768_S768x768_S1024x768_1_0_0_1_n_n.lhsBatch by decide),
      dif_pos (show (0 : Fin S1024x768.rank) ∈ dot_S1024x768_S768x768_S1024x768_1_0_0_1_n_n.lhsNonContracting by decide)]
    rfl
  lhs1 := fun i q => dot_S1024x768_S768x768_S1024x768_1_0_0_1_n_n.lhsIdx_val_of_single rfl i q
  rhs0 := fun i q => dot_S1024x768_S768x768_S1024x768_1_0_0_1_n_n.rhsIdx_val_of_single rfl i q
  rhs1 := fun i q => by
    unfold DotDims.rhsIdx
    rw [dif_neg (show ¬(1 : Fin S768x768.rank) ∈ dot_S1024x768_S768x768_S1024x768_1_0_0_1_n_n.rhsBatch by decide),
      dif_pos (show (1 : Fin S768x768.rank) ∈ dot_S1024x768_S768x768_S1024x768_1_0_0_1_n_n.rhsNonContracting by decide)]
    rfl

/-- The first product, rows times the matrix, into the zero accumulator: entry (i, d) is Σ e, rows (i, e) · matrix (e, d). -/
theorem first_apply (lhs : FVec Ideal S1024x768 .f32) (rhs : FVec Ideal S768x768 .f32) (i : Fin 1024) (d : Fin 768) :
    matmul dot_S1024x768_S768x768_S1024x768_1_0_0_1_n_n (some .fp32) lhs rhs (constant (F := Ideal) S1024x768 .f32 0x00000000#32) (ix2 i d)
      = ∑ e : Fin 768, lhs (ix2 i e) * rhs (ix2 e d) :=
  Cert.DotRead.matmul_zero_apply dot_S1024x768_S768x768_S1024x768_1_0_0_1_n_n plain_first (some .fp32) lhs rhs i d

/-- In the second product the left operand is read at (output row, contraction) … -/
theorem second_lhs0 (y : S1024x1024.Idx) (q : dot_S1024x768_S1024x768_S1024x1024_1_1_0_0_n_n.contr.Idx) : (dot_S1024x768_S1024x768_S1024x1024_1_1_0_0_n_n.lhsIdx y q 0).val = (y 0).val := by
  unfold DotDims.lhsIdx
  rw [dif_neg (show ¬(0 : Fin S1024x768.rank) ∈ dot_S1024x768_S1024x768_S1024x1024_1_1_0_0_n_n.lhsBatch by decide),
    dif_pos (show (0 : Fin S1024x768.rank) ∈ dot_S1024x768_S1024x768_S1024x1024_1_1_0_0_n_n.lhsNonContracting by decide)]
  rfl
theorem second_lhs1 (y : S1024x1024.Idx) (q : dot_S1024x768_S1024x768_S1024x1024_1_1_0_0_n_n.contr.Idx) : (dot_S1024x768_S1024x768_S1024x1024_1_1_0_0_n_n.lhsIdx y q 1).val = (q ⟨0, by decide⟩).val :=
  dot_S1024x768_S1024x768_S1024x1024_1_1_0_0_n_n.lhsIdx_val_of_single rfl y q
/-- … and the right operand at (output column, contraction): it enters transposed. -/
theorem second_rhs0 (y : S1024x1024.Idx) (q : dot_S1024x768_S1024x768_S1024x1024_1_1_0_0_n_n.contr.Idx) : (dot_S1024x768_S1024x768_S1024x1024_1_1_0_0_n_n.rhsIdx y q 0).val = (y 1).val := by
  unfold DotDims.rhsIdx
  rw [dif_neg (show ¬(0 : Fin S1024x768.rank) ∈ dot_S1024x768_S1024x768_S1024x1024_1_1_0_0_n_n.rhsBatch by decide),
    dif_pos (show (0 : Fin S1024x768.rank) ∈ dot_S1024x768_S1024x768_S1024x1024_1_1_0_0_n_n.rhsNonContracting by decide)]
  rfl
theorem second_rhs1 (y : S1024x1024.Idx) (q : dot_S1024x768_S1024x768_S1024x1024_1_1_0_0_n_n.contr.Idx) : (dot_S1024x768_S1024x768_S1024x1024_1_1_0_0_n_n.rhsIdx y q 1).val = (q ⟨0, by decide⟩).val :=
  dot_S1024x768_S1024x768_S1024x1024_1_1_0_0_n_n.rhsIdx_val_of_single rfl y q

/-- The second product, rows against rows, into the zero accumulator: entry (i, j) is Σ d, left (i, d) · right (j, d). -/
theorem second_apply (lhs rhs : FVec Ideal S1024x768 .f32) (i j : Fin 1024) :
    matmul dot_S1024x768_S1024x768_S1024x1024_1_1_0_0_n_n (some .fp32) lhs rhs (constant (F := Ideal) S1024x1024 .f32 0x00000000#32) (ix2 i j)
      = ∑ d : Fin 768, lhs (ix2 i d) * rhs (ix2 j d) := by
  simp only [matmul]
  rw [Ideal.matmul_constant_zero_apply, ← Equiv.sum_comp (contrEquiv1 dot_S1024x768_S1024x768_S1024x1024_1_1_0_0_n_n 768 rfl rfl).symm]
  refine Finset.sum_congr rfl fun k _ => ?_
  have hk := contrEquiv1_symm_val dot_S1024x768_S1024x768_S1024x1024_1_1_0_0_n_n 768 rfl rfl k
  have el : dot_S1024x768_S1024x768_S1024x1024_1_1_0_0_n_n.lhsIdx (ix2 i j) ((contrEquiv1 dot_S1024x768_S1024x768_S1024x1024_1_1_0_0_n_n 768 rfl rfl).symm k) = ix2 i k :=
    funext fun a => Fin.ext (by
      match a with
      | ⟨0, _⟩ => exact second_lhs0 _ _
      | ⟨1, _⟩ => exact (second_lhs1 _ _).trans hk)
  have er : dot_S1024x768_S1024x768_S1024x1024_1_1_0_0_n_n.rhsIdx (ix2 i j) ((contrEquiv1 dot_S1024x768_S1024x768_S1024x1024_1_1_0_0_n_n 768 rfl rfl).symm k) = ix2 j k :=
    funext fun a => Fin.ext (by
      match a with
      | ⟨0, _⟩ => exact second_rhs0 _ _
      | ⟨1, _⟩ => exact (second_rhs1 _ _).trans hk)
  rw [el, er]

/-! ## Half the quadratic form of a row, and the masked square -/

/-- The lane sum of q · r along each row, stood up as a column and multiplied by the constant one half, reads at row i
    half of Σ d, q (i, d) · r (i, d). -/
theorem halfQuad_read (q r : FVec Ideal S1024x768 .f32) (hr : S1024x768.Reduces [1] S1024) (hc : S1024.ShapeCasts S1024x1)
    (i : Fin 1024) (u : Fin 1) :
    mulf (broadcast S1024x1 (Scalar.ofBits (F := Ideal) .f32 0x3F000000#32))
        (shapeCast S1024x1 (multiReduction (F := Ideal) .add [1] S1024 (mulf q r) 0x00000000#32 hr (.inl rfl) rfl) hc) (ix2 i u)
      = Cert.PairForm.half * ∑ d : Fin 768, q (ix2 i d) * r (ix2 i d) := by
  show Ideal.ofBits .f32 0x3F000000#32
      * shapeCast S1024x1 (multiReduction (F := Ideal) .add [1] S1024 (mulf q r) 0x00000000#32 hr (.inl rfl) rfl) hc (ix2 i u) = _
  rw [Cert.PairForm.half_word, Cert.LayoutRead.cast_col, Cert.LayoutRead.rowsum]
  rfl

/-- The end of the body: the column c of half quadratic forms is spread along the rows, its transpose along the columns, the
    two are added, the square p of pairwise products is subtracted, and the diagonal (row number = column number) is
    replaced by zero; the result is stored as a block with a leading unit axis. At (0, i, j) it reads
    c i + c j − p (i, j) off the diagonal and 0 on it. -/
theorem masked_read (c : FVec Ideal S1024x1 .f32) (p : FVec Ideal S1024x1024 .f32)
    (ht : S1024x1.Transposes [1, 0] S1x1024) (hb1 : S1024x1.Broadcasts S1024x1024) (hb2 : S1x1024.Broadcasts S1024x1024)
    (hi0 : S1024x1024.Iotas .tc 32 [0]) (hi1 : S1024x1024.Iotas .tc 32 [1]) (hc : S1024x1024.ShapeCasts S1x1024x1024)
    (i j : Fin 1024) :
    shapeCast S1x1024x1024
        (select (cmpi .eq (iota .tc S1024x1024 32 [0] hi0) (iota .tc S1024x1024 32 [1] hi1))
          (broadcast S1024x1024 (Scalar.ofBits (F := Ideal) .f32 0x00000000#32))
          (subf (addf (broadcastTo S1024x1024 c hb1) (broadcastTo S1024x1024 (transpose S1x1024 [1, 0] c ht) hb2)) p))
        hc (ix3 (0 : Fin 1) i j)
      = if i = j then 0 else c (ix2 i (0 : Fin 1)) + c (ix2 j (0 : Fin 1)) - p (ix2 i j) := by
  rw [cast_out]
  show Scalar.select (IntOp.cmpi .eq (iota .tc S1024x1024 32 [0] hi0 (ix2 i j)) (iota .tc S1024x1024 32 [1] hi1 (ix2 i j)))
      (Ideal.ofBits .f32 0x00000000#32)
      (broadcastTo S1024x1024 c hb1 (ix2 i j) + broadcastTo S1024x1024 (transpose S1x1024 [1, 0] c ht) hb2 (ix2 i j) - p (ix2 i j)) = _
  rw [iota_row, iota_col, Cert.PairForm.select_cmpi_eq (n := 1024) (by norm_num), Ideal.ofBits_zero_f32,
    Cert.LayoutRead.bcast_col, bcast_row, transpose_col]

/-! ## The stored value -/

/-- Row i of the loaded block times the loaded matrix: the first product of the two re-read blocks, at (i, d), is
    Σ e, rows (0, i, e) · matrix (e, d). -/
theorem qrow_read (v0 : FVec Ideal S1x1024x768 .f32) (v2 : FVec Ideal S768x768 .f32)
    (h1 : S1x1024x768.ShapeCasts S1024x768) (h3 : S768x768.ShapeCasts S768x768) (i : Fin 1024) (d : Fin 768) :
    matmul dot_S1024x768_S768x768_S1024x768_1_0_0_1_n_n (some .fp32) (shapeCast S1024x768 v0 h1) (shapeCast S768x768 v2 h3)
        (constant (F := Ideal) S1024x768 .f32 0x00000000#32) (ix2 i d)
      = ∑ e : Fin 768, v0 (ix3 (0 : Fin 1) i e) * v2 (ix2 e d) := by
  rw [first_apply]
  refine Finset.sum_congr rfl fun e _ => ?_
  rw [cast_block, shapeCast_self]

/-- The body's stored block at (0, i, j): the symmetrised formula of the loaded rows and the loaded matrix. -/
theorem pay_apply (v0 : Vec Ideal S1x1024x768 .f32) (v2 : Vec Ideal S768x768 .f32) (i j : Fin 1024) :
    k0_pay1 (F := Ideal) v0 v2 (ix3 (0 : Fin 1) i j)
      = Cert.PairForm.kerDist (fun (i : Fin 1024) (e : Fin 768) => v0 (ix3 (0 : Fin 1) i e)) (fun (e d : Fin 768) => v2 (ix2 e d)) i j := by
  unfold k0_pay1
  refine (masked_read _ _ _ _ _ _ _ _ i j).trans ?_
  unfold Cert.PairForm.kerDist Cert.PairForm.halfQuad Cert.PairForm.kcross Cert.PairForm.qrow
  refine congrArg (fun t : EReal => if i = j then 0 else t) ?_
  refine congrArg₂ (· - ·) (congrArg₂ (· + ·) ?_ ?_) ?_
  · refine (halfQuad_read _ _ _ _ i 0).trans ?_
    refine congrArg (Cert.PairForm.half * ·) (Finset.sum_congr rfl fun d _ => ?_)
    exact congrArg₂ (· * ·) (qrow_read v0 v2 _ _ i d) (cast_block v0 _ i d)
  · refine (halfQuad_read _ _ _ _ j 0).trans ?_
    refine congrArg (Cert.PairForm.half * ·) (Finset.sum_congr rfl fun d _ => ?_)
    exact congrArg₂ (· * ·) (qrow_read v0 v2 _ _ j d) (cast_block v0 _ j d)
  · refine (second_apply _ _ i j).trans ?_
    refine Finset.sum_congr rfl fun d _ => ?_
    exact congrArg₂ (· * ·) (qrow_read v0 v2 _ _ i d) (cast_block v0 _ j d)

end Cert.KernelIdeal.PayValue

end
-- ==== Proof.KerArray.lean ====
/-
  From the blocks the kernel writes to the whole result array.

  The grid has one point per sequence of the batch. At point t the kernel sees the 1024 rows of sequence t and the
  768 × 768 matrix S that the program prepared beforehand as A + Aᵀ (the same at every point), and writes slab t of the
  result. The value it stores at (0, i, j) is the symmetrised pairwise form of rows i and j under S; rows i of the
  block at point t are rows i of sequence t, and entry (e, d) of S is A (e, d) + A (d, e). So what point t writes is
  slab t of ONE function of the two argument arrays, the slabs cover the result array (index (b, i, j) lies in the
  slab of point b), and the array ends holding that function.
-/
import proofs.«145885_j4148938408316_2_alg».proof.Proof.Gen.KernelIdeal.Value
import proofs.«145885_j4148938408316_2_alg».proof.Proof.Spec
import proofs.«145885_j4148938408316_2_alg».proof.Proof.PayRead
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen Cert.KernelIdeal.Value

variable (m : (ℓ : Loc nD τ sig) → Buf (Elt Ideal) ℓ) (ρ : Dev nD → PrngReg)

/-- The first argument array (the batch of row sequences) on core c. -/
abbrev argX (c : Dev nD) : FVec Ideal S64x1024x768 .f32 := m ((c : Thread nD τ).loc main_arg0)
/-- The second argument array (the square matrix) on core c. -/
abbrev argA (c : Dev nD) : FVec Ideal S768x768 .f32 := m ((c : Thread nD τ).loc main_arg1)

/-- The whole result array as one function of the two argument arrays: entry (b, i, j) is the symmetrised
    pairwise form of rows i and j of sequence b, under the matrix A + Aᵀ. -/
def Gker (x : FVec Ideal S64x1024x768 .f32) (A : FVec Ideal S768x768 .f32) : FVec Ideal S64x1024x1024 .f32 := fun o =>
  Cert.PairForm.kerDist (fun (i : Fin 1024) (e : Fin 768) => x (ix3 (o 0) i e))
    (fun (e d : Fin 768) => A (ix2 e d) + A (ix2 d e)) (o 1) (o 2)

theorem Gker_ix3 (x : FVec Ideal S64x1024x768 .f32) (A : FVec Ideal S768x768 .f32) (b : Fin 64) (i j : Fin 1024) :
    Gker x A (ix3 b i j) = Cert.PairForm.kerDist (fun (i : Fin 1024) (e : Fin 768) => x (ix3 b i e))
      (fun (e d : Fin 768) => A (ix2 e d) + A (ix2 d e)) i j := rfl

/-- The matrix the region finds in its second window's array: the second argument plus its transpose. -/
theorem V_sym (c : Dev nD) : (V m c main_v1 : FVec Ideal S768x768 .f32)
    = addf (F := Ideal) (argA m c) (transpose S768x768 [1, 0] (argA m c) Facts₀.transposes_S768x768_S768x768_1_0) := by
  dsimp only [Gen.V, Gen.hostOps0]
  after_results

/-- Entry (e, d) of that matrix is A (e, d) + A (d, e). -/
theorem V_sym_apply (c : Dev nD) (e d : Fin 768) :
    (V m c main_v1 : FVec Ideal S768x768 .f32) (ix2 e d) = argA m c (ix2 e d) + argA m c (ix2 d e) := by
  rw [V_sym]
  show argA m c (ix2 e d) + transpose S768x768 [1, 0] (argA m c) Facts₀.transposes_S768x768_S768x768_1_0 (ix2 e d) = _
  refine congrArg (argA m c (ix2 e d) + ·) ?_
  exact transpose_apply [1, 0] (argA m c) Facts₀.transposes_S768x768_S768x768_1_0 (ix2 e d) (ix2 d e) (fun b => match b with
    | ⟨0, _⟩ => rfl
    | ⟨1, _⟩ => rfl)

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: point t takes sequence t of the batch and writes slab t of the result; the matrix
    window never moves. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Row i of the batch block at point t is row i of sequence t. -/
theorem blk0_read (c : Dev nD) (t : Fin cfg0.N) (b : Fin 64) (hb : b.val = t.val) (i : Fin 1024) (e : Fin 768) :
    (iblk m c 0 t : Vec Ideal S1x1024x768 .f32) (ix3 (0 : Fin 1) i e) = argX m c (ix3 b i e) := by
  obtain ⟨e0, e1, e2, -⟩ := idx_facts t
  show V m c main_arg0 (((cfg0.win 0).blk t).view.emb (ix3 (0 : Fin 1) i e)) = _
  rw [V_main_arg0]
  refine congrArg (argX m c) ?_
  funext a; apply Fin.ext
  match a with
  | ⟨0, _⟩ => show win0_0.index t (0 : Fin 3) * 1 + 1 * 0 = b.val; omega
  | ⟨1, _⟩ => show win0_0.index t (1 : Fin 3) * 1024 + 1 * i.val = i.val; omega
  | ⟨2, _⟩ => show win0_0.index t (2 : Fin 3) * 768 + 1 * e.val = e.val; omega

/-- The matrix block at every point is the whole symmetrised matrix. -/
theorem blk1_read (c : Dev nD) (t : Fin cfg0.N) (e d : Fin 768) :
    (iblk m c 1 t : Vec Ideal S768x768 .f32) (ix2 e d) = argA m c (ix2 e d) + argA m c (ix2 d e) := by
  obtain ⟨-, -, -, e0, e1, -⟩ := idx_facts t
  refine Eq.trans ?_ (V_sym_apply m c e d)
  show V m c main_v1 (((cfg0.win 1).blk t).view.emb (ix2 e d)) = V m c main_v1 (ix2 e d)
  refine congrArg (V m c main_v1) ?_
  funext a; apply Fin.ext
  match a with
  | ⟨0, _⟩ => show win0_1.index t (0 : Fin 2) * 768 + 1 * e.val = e.val; omega
  | ⟨1, _⟩ => show win0_1.index t (1 : Fin 2) * 768 + 1 * d.val = d.val; omega

/-- What point t writes back is slab t of the whole-array function. -/
theorem flushed_eq (c : Dev nD) (t : Fin cfg0.N) :
    (dats m 0 c).flushed 2 t = ((cfg0.win 2).blk t).view.read (Elt Ideal) (Gker (argX m c) (argA m c)) := by
  have hN : cfg0.N = 64 := N_0
  have ht : t.val < 64 := hN ▸ t.isLt
  obtain ⟨-, -, -, -, -, e0, e1, e2⟩ := idx_facts t
  rw [Value.flushed2]
  unfold out0_2
  rw [View.canon_unit_zero hz3]
  simp only [View.ld_unit_zero (S := S1x1024x768) hz3, View.ld_unit_zero (S := S768x768) hz2]
  funext y
  obtain ⟨y0, i, j, rfl⟩ : ∃ (y0 : Fin 1) (i j : Fin 1024), y = ix3 y0 i j := ⟨y 0, y 1, y 2, eq_ix3 y⟩
  obtain rfl : y0 = 0 := Subsingleton.elim _ _
  have hemb : ((cfg0.win 2).blk t).view.emb (ix3 (0 : Fin 1) i j) = ix3 (⟨t.val, ht⟩ : Fin 64) i j := by
    funext a; apply Fin.ext
    match a with
    | ⟨0, _⟩ => show win0_2.index t (0 : Fin 3) * 1 + 1 * 0 = t.val; omega
    | ⟨1, _⟩ => show win0_2.index t (1 : Fin 3) * 1024 + 1 * i.val = i.val; omega
    | ⟨2, _⟩ => show win0_2.index t (2 : Fin 3) * 1024 + 1 * j.val = j.val; omega
  show k0_pay1 (iblk m c 0 t) (iblk m c 1 t) (ix3 (0 : Fin 1) i j)
    = Gker (argX m c) (argA m c) (((cfg0.win 2).blk t).view.emb (ix3 (0 : Fin 1) i j))
  rw [hemb, Gker_ix3]
  refine (PayValue.pay_apply (iblk m c 0 t) (iblk m c 1 t) i j).trans ?_
  exact congrArg₂ (fun r S => Cert.PairForm.kerDist r S i j)
    (funext fun i' => funext fun e => blk0_read m c t ⟨t.val, ht⟩ rfl i' e)
    (funext fun e => funext fun d => blk1_read m c t e d)

/-- An index of the result array lies in point t's block iff each coordinate lies in the block's range. -/
theorem mem_blk (t : Fin cfg0.N) (o : S64x1024x1024.Idx) :
    o ∈ ((cfg0.win 2).blk t).view.set ↔ ∀ a : Fin 3, win0_2.index t a * S1x1024x1024.size a ≤ (o a).val ∧ (o a).val < win0_2.index t a * S1x1024x1024.size a + S1x1024x1024.size a := by
  show o ∈ ((View.whole main_v2).slice (win0_2.rect t)).set ↔ _
  rw [View.set_slice_whole, Rect.mem_set_unit]
  exact Iff.rfl

/-- Every index of the result array is in the block of the point named by its first coordinate. -/
theorem cover (o : S64x1024x1024.Idx) : ∃ t : Fin cfg0.N, (cfg0.win 2).flush t = true ∧ o ∈ ((cfg0.win 2).blk t).view.set := by
  have h0 : (o 0).val < 64 := (o 0).isLt
  have h1 : (o 1).val < 1024 := (o 1).isLt
  have h2 : (o 2).val < 1024 := (o 2).isLt
  have hlt : (o 0).val < cfg0.N := by rw [show cfg0.N = 64 from N_0]; exact h0
  obtain ⟨-, -, -, -, -, e0, e1, e2⟩ := idx_facts ⟨(o 0).val, hlt⟩
  have e0' : win0_2.index ⟨(o 0).val, hlt⟩ (0 : Fin 3) = (o 0).val := e0
  refine ⟨⟨(o 0).val, hlt⟩, flush0_2 _, ?_⟩
  rw [mem_blk]
  intro a
  match a with
  | ⟨0, _⟩ =>
    show win0_2.index ⟨(o 0).val, hlt⟩ (0 : Fin 3) * 1 ≤ (o 0).val ∧ (o 0).val < win0_2.index ⟨(o 0).val, hlt⟩ (0 : Fin 3) * 1 + 1
    rw [e0']; omega
  | ⟨1, _⟩ =>
    show win0_2.index ⟨(o 0).val, hlt⟩ (1 : Fin 3) * 1024 ≤ (o 1).val ∧ (o 1).val < win0_2.index ⟨(o 0).val, hlt⟩ (1 : Fin 3) * 1024 + 1024
    rw [e1]; omega
  | ⟨2, _⟩ =>
    show win0_2.index ⟨(o 0).val, hlt⟩ (2 : Fin 3) * 1024 ≤ (o 2).val ∧ (o 2).val < win0_2.index ⟨(o 0).val, hlt⟩ (2 : Fin 3) * 1024 + 1024
    rw [e2]; omega

/-- After the run the result array holds the whole-array function of the two arguments. -/
theorem final (c : Dev nD) : (dats m 0 c).arrAt 2 cfg0.N = Gker (argX m c) (argA m c) :=
  (dats m 0 c).arrAt_eq_of_cover 2 (Gker (argX m c) (argA m c)) (fun t _ => flushed_eq m c t) cover

/-- The kernel's run, read: the result array at the whole-array function, the arguments unchanged. -/
theorem run : θ_run defs (onTc (τ := τ) (main (F := Ideal))) ⟨m, fun _ => 0, ρ⟩ fun r => ∀ c : Dev nD,
      r.2.mem ((c : Thread nD τ).loc main_v2) = Gker (argX m c) (argA m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KerValue

end
-- ==== Proof.RefRead.lean ====
/-
  The reference program computes, for each batch b and each pair of positions i, j, the pairwise bilinear
  form of the rows x[b,i,·] and x[b,j,·] under the matrix A, in the expanded way: it first multiplies every row
  by A, then contracts the result against every row (the cross term c i j = Σ e (Σ d x i d · A d e) · x j e),
  masks the cross terms with the identity pattern and sums down a column to pick the diagonal c j j, spreads
  that diagonal along rows and along columns, adds the two, and subtracts the cross term and its transpose.

  Here each stage is read at an index built from its coordinates, and the last stage is shown to be
  the expanded formula  c i i + c j j − c i j − c j i  with the diagonal written as a masked sum.
-/
import proofs.«145885_j4148938408316_2_alg».proof.Proof.Spec
import proofs.«145885_j4148938408316_2_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx
open Cert.ReferenceIdeal.Read

variable (x : (⟨S64x1024x768, .f32⟩ : BufTy).Contents (Elt Ideal)) (A : (⟨S768x768, .f32⟩ : BufTy).Contents (Elt Ideal))

/-- The first product, row i of batch b times A, at coordinate e: the sum over d of x[b,i,d] · A[d,e]. -/
theorem v0_apply (b : Fin 64) (i : Fin 1024) (e : Fin 768) :
    val_main_v0 (F := Ideal) x A (ix3 b i e)
      = Cert.PairForm.proj (fun (i : Fin 1024) (e : Fin 768) => x (ix3 b i e)) (fun (d e : Fin 768) => A (ix2 d e)) i e := by
  rw [val_main_v0_apply]
  unfold Cert.PairForm.proj
  refine Finset.sum_congr rfl fun k _ => ?_
  have e1 : lidx_main_v0 (ix3 b i e) k = ix3 b i k :=
    funext fun a => Fin.ext (by match a with | ⟨0, _⟩ => rfl | ⟨1, _⟩ => rfl | ⟨2, _⟩ => rfl)
  have e2 : ridx_main_v0 (ix3 b i e) k = ix2 k e :=
    funext fun a => Fin.ext (by match a with | ⟨0, _⟩ => rfl | ⟨1, _⟩ => rfl)
  rw [e1, e2]

/-- The second product at (b, i, j): the projected row i contracted against row j, the cross term. -/
theorem v1_apply (b : Fin 64) (i j : Fin 1024) :
    val_main_v1 (F := Ideal) x A (ix3 b i j)
      = Cert.PairForm.cross (fun (i : Fin 1024) (e : Fin 768) => x (ix3 b i e)) (fun (d e : Fin 768) => A (ix2 d e)) i j := by
  rw [val_main_v1_apply]
  unfold Cert.PairForm.cross
  refine Finset.sum_congr rfl fun k _ => ?_
  have e1 : lidx_main_v1 (ix3 b i j) k = ix3 b i k :=
    funext fun a => Fin.ext (by match a with | ⟨0, _⟩ => rfl | ⟨1, _⟩ => rfl | ⟨2, _⟩ => rfl)
  have e2 : ridx_main_v1 (ix3 b i j) k = ix3 b j k :=
    funext fun a => Fin.ext (by match a with | ⟨0, _⟩ => rfl | ⟨1, _⟩ => rfl | ⟨2, _⟩ => rfl)
  rw [e1, e2, v0_apply]

/-- The masked cross term at (b, k, j): the cross term where the two positions agree, zero elsewhere. -/
theorem v7_apply (b : Fin 64) (k j : Fin 1024) :
    val_main_v7 (F := Ideal) x A (ix3 b k j)
      = if k = j then Cert.PairForm.cross (fun (i : Fin 1024) (e : Fin 768) => x (ix3 b i e)) (fun (d e : Fin 768) => A (ix2 d e)) k j else 0 := by
  rw [val_main_v7_apply, val_main_v5_apply, val_main_v4_apply, val_main_v2_apply, val_main_v3_apply,
    val_main_v6_apply, val_main_cst_apply, Ideal.ofBits_def, Ideal.ofBits_zero_f32, v1_apply]
  exact Cert.PairForm.select_cmpi_eq (n := 1024) (by norm_num) k j _ _

/-- The column sum of the masked cross terms at (b, j): the diagonal entry, as the masked sum. -/
theorem v8_apply (b : Fin 64) (j : Fin 1024) :
    val_main_v8 (F := Ideal) x A (ix2 b j)
      = Cert.PairForm.quad (fun (i : Fin 1024) (e : Fin 768) => x (ix3 b i e)) (fun (d e : Fin 768) => A (ix2 d e)) j := by
  rw [val_main_v8_apply, val_main_cst_0_apply, Ideal.ofBits_def, Ideal.ofBits_zero_f32]
  unfold Cert.PairForm.quad
  refine congrArg (0 + ·) (Finset.sum_congr rfl fun k _ => ?_)
  have e1 : idx_main_v8 (ix2 b j) k = ix3 b k j :=
    funext fun a => Fin.ext (by match a with | ⟨0, _⟩ => rfl | ⟨1, _⟩ => rfl | ⟨2, _⟩ => rfl)
  rw [e1, v7_apply]

/-- The last stage at (b, i, j) is the expanded pairwise form of rows i and j of batch b. -/
theorem val_apply (x : (⟨S64x1024x768, .f32⟩ : BufTy).Contents (Elt Ideal)) (A : (⟨S768x768, .f32⟩ : BufTy).Contents (Elt Ideal))
    (b : Fin 64) (i j : Fin 1024) :
    Cert.ReferenceIdeal.Read.val_main_v16 (F := Ideal) x A (ix3 b i j)
      = Cert.PairForm.refDist (fun (i : Fin 1024) (e : Fin 768) => x (ix3 b i e)) (fun (d e : Fin 768) => A (ix2 d e)) i j := by
  have e9 : idx_main_v9 (idx_main_v11 (ix3 b i j)) = ix2 b i :=
    funext fun a => Fin.ext (by match a with | ⟨0, _⟩ => rfl | ⟨1, _⟩ => rfl)
  have e10 : idx_main_v10 (idx_main_v12 (ix3 b i j)) = ix2 b j :=
    funext fun a => Fin.ext (by match a with | ⟨0, _⟩ => rfl | ⟨1, _⟩ => rfl)
  have e15 : idx_main_v15 (ix3 b i j) = ix3 b j i :=
    funext fun a => Fin.ext (by match a with | ⟨0, _⟩ => rfl | ⟨1, _⟩ => rfl | ⟨2, _⟩ => rfl)
  rw [val_main_v16_apply, val_main_v14_apply, val_main_v15_apply, val_main_v13_apply, val_main_v11_apply,
    val_main_v12_apply, val_main_v9_apply, val_main_v10_apply, e9, e10, e15, v8_apply, v8_apply, v1_apply, v1_apply]
  rfl

end Cert.ReferenceIdeal.RefValue

end
-- ==== Proof.Algebra.lean ====
/-
  The symmetrised formula and the expanded formula for the pairwise bilinear form agree when every entry
  is a real number.

  Write C i j = Σ e (Σ d r i d · A d e) · r j e for the bilinear form of rows i and j under A. With
  S = A + Aᵀ the bilinear form under S is Σ d (Σ e r i e · S e d) · r j d = C i j + C j i: the A part is
  C i j with the summation letters renamed, the Aᵀ part is C j i after exchanging the two sums. Taking
  j = i, half of it is C i i. So off the diagonal the symmetrised formula is
  C i i + C j j − (C i j + C j i), which is the expanded formula once the masked sum is read as C j j.
  On the diagonal the expanded formula is C i i + C i i − C i i − C i i = 0.

  All of this is arithmetic in the real numbers; distributivity and x − x = 0 both fail at ±∞ in the
  extended reals, so the proof first reads every piece as the image of a real number and only then
  calculates.
-/
import proofs.«145885_j4148938408316_2_alg».proof.Proof.Spec

noncomputable section

namespace Cert.PairForm

/-- A finite sum of real numbers, read in the extended reals, is the sum of the readings. -/
theorem coe_real_sum {β : Type} (s : Finset β) (f : β → ℝ) :
    ((∑ a ∈ s, f a : ℝ) : EReal) = ∑ a ∈ s, ((f a : ℝ) : EReal) := by
  classical
  induction s using Finset.induction_on with
  | empty => rw [Finset.sum_empty, Finset.sum_empty, EReal.coe_zero]
  | insert a s ha ih => rw [Finset.sum_insert ha, Finset.sum_insert ha, EReal.coe_add, ih]

section real
variable {ι κ : Type} [Fintype ι] [DecidableEq ι] [Fintype κ] (ρ : ι → κ → ℝ) (α : κ → κ → ℝ)

/-- The bilinear form of rows i and j under α, over the real numbers. -/
def realCross (i j : ι) : ℝ := ∑ e : κ, (∑ d : κ, ρ i d * α d e) * ρ j e

/-- The bilinear form of rows i and j under the symmetrised matrix α + αᵀ, over the real numbers. -/
def realSym (i j : ι) : ℝ := ∑ d : κ, (∑ e : κ, ρ i e * (α e d + α d e)) * ρ j d

/-- The symmetrised bilinear form is the sum of the two one-sided ones. -/
theorem realSym_eq (i j : ι) : realSym ρ α i j = realCross ρ α i j + realCross ρ α j i := by
  unfold realSym realCross
  simp only [mul_add, Finset.sum_add_distrib, add_mul]
  congr 1
  simp only [Finset.sum_mul]
  rw [Finset.sum_comm]
  refine Finset.sum_congr rfl fun e _ => Finset.sum_congr rfl fun d _ => ?_
  ring

/-- Row i times the symmetrised matrix, on real entries, is the image of the real sum. -/
theorem qrow_coe (i : ι) (d : κ) :
    qrow (fun i e => ((ρ i e : ℝ) : EReal)) (fun e d => ((α e d : ℝ) : EReal) + ((α d e : ℝ) : EReal)) i d
      = ((∑ e : κ, ρ i e * (α e d + α d e) : ℝ) : EReal) := by
  simp only [qrow, coe_real_sum, EReal.coe_mul, EReal.coe_add]

/-- The bilinear form under the symmetrised matrix, on real entries, is the image of the real one. -/
theorem kcross_coe (i j : ι) :
    kcross (fun i e => ((ρ i e : ℝ) : EReal)) (fun e d => ((α e d : ℝ) : EReal) + ((α d e : ℝ) : EReal)) i j
      = ((realSym ρ α i j : ℝ) : EReal) := by
  simp only [kcross, qrow_coe, realSym, coe_real_sum, EReal.coe_mul]

/-- Half the quadratic form under the symmetrised matrix, on real entries, is the image of half the real one. -/
theorem halfQuad_coe (i : ι) :
    halfQuad (fun i e => ((ρ i e : ℝ) : EReal)) (fun e d => ((α e d : ℝ) : EReal) + ((α d e : ℝ) : EReal)) i
      = ((1 / 2 * realSym ρ α i i : ℝ) : EReal) := by
  simp only [halfQuad, half, qrow_coe, realSym, coe_real_sum, EReal.coe_mul]

/-- The bilinear form under α, on real entries, is the image of the real one. -/
theorem cross_coe (i j : ι) :
    cross (fun i e => ((ρ i e : ℝ) : EReal)) (fun d e => ((α d e : ℝ) : EReal)) i j
      = ((realCross ρ α i j : ℝ) : EReal) := by
  simp only [cross, proj, realCross, coe_real_sum, EReal.coe_mul]

end real

/-- The masked sum picks the diagonal entry of the bilinear form. -/
theorem quad_eq_cross {ι κ : Type} [Fintype ι] [DecidableEq ι] [Fintype κ]
    (r : ι → κ → EReal) (A : κ → κ → EReal) (j : ι) : quad r A j = cross r A j j := by
  unfold quad
  rw [Finset.sum_ite_eq', if_pos (Finset.mem_univ j), zero_add]

/-- On real entries the symmetrised formula and the expanded formula are the same number. -/
theorem kerDist_eq_refDist {ι κ : Type} [Fintype ι] [DecidableEq ι] [Fintype κ] (r : ι → κ → EReal) (A : κ → κ → EReal)
    (hr : ∀ i e, ∃ v : ℝ, r i e = (v : EReal)) (hA : ∀ d e, ∃ v : ℝ, A d e = (v : EReal)) (i j : ι) :
    kerDist r (fun e d => A e d + A d e) i j = refDist r A i j := by
  choose ρ hρ using hr
  choose α hα using hA
  obtain rfl : r = fun i e => ((ρ i e : ℝ) : EReal) := funext fun i => funext fun e => hρ i e
  obtain rfl : A = fun d e => ((α d e : ℝ) : EReal) := funext fun d => funext fun e => hα d e
  rw [refDist, quad_eq_cross, quad_eq_cross, cross_coe, cross_coe, cross_coe, cross_coe]
  by_cases h : i = j
  · subst h
    rw [kerDist, if_pos rfl, ← EReal.coe_add, ← EReal.coe_sub, ← EReal.coe_sub, ← EReal.coe_zero]
    congr 1
    ring
  · rw [kerDist, if_neg h]
    rw [halfQuad_coe ρ α i, halfQuad_coe ρ α j, kcross_coe ρ α i j]
    rw [← EReal.coe_add, ← EReal.coe_sub, ← EReal.coe_add, ← EReal.coe_sub, ← EReal.coe_sub]
    congr 1
    rw [realSym_eq, realSym_eq, realSym_eq]
    ring

end Cert.PairForm

end
-- ==== Proof.Finite.lean ====
/-
  The precondition "every float input is finite", read back. The predicate takes the absolute value of every entry of
  an argument array, compares it (strictly below) with plus infinity, and folds the resulting bits of the whole array
  by "and", starting from 1; it does so for both arguments and takes the "and" of the two results. If the outcome is 1
  then each fold is 1, so every compared bit is 1, so every entry a satisfies max a (-a) < plus infinity over the
  extended reals. Neither infinity satisfies that (for both, max a (-a) is plus infinity), so every entry is a real number.
-/
import proofs.«145885_j4148938408316_2_alg».proof.Pre_finite_inputs
import Idealize.ShloMosaic.Lib.ReduceAll
import Idealize.ShloMosaic.PureOps.Ideal.Laws
import Idealize.ShloMosaic.Lib.ValueIdx

noncomputable section

namespace Cert.Pre_finite_inputs.Finite

open Cert.Pre_finite_inputs Idealize.ShloMosaic

/-- The rank-0 shape has exactly one index. -/
instance subsingleton_scalar_idx : Subsingleton S_.Idx := ⟨fun a b => funext fun d => d.elim0⟩

/-- The f32 word 0x7F800000 is plus infinity. -/
theorem inf_word : Ideal.ofBits .f32 0x7F800000#32 = (⊤ : EReal) := by simp [Ideal.ofBits, Ideal.ieee]

/-- An extended real whose absolute value max a (-a) compares strictly below plus infinity is a real number: at either
    infinity the absolute value is plus infinity itself. -/
theorem real_of_abs_lt_top (a : EReal) (h : Ideal.cmp .olt (max a (-a)) ⊤ = 1#1) : ∃ v : ℝ, a = (v : EReal) := by
  unfold Ideal.cmp at h
  induction a using EReal.rec with
  | bot => simp at h
  | coe v => exact ⟨v, rfl⟩
  | top => simp at h

/-- One argument array of any shape: if the "and" over all entries of the bits |y i| < +inf, started from some initial
    word, is 1 at the one index of the result, then every entry of y is a real number. -/
theorem real_of_all_lt_inf {s : Shape} {axes : List (Fin s.rank)}
    (hb : S_.BroadcastsInDim s (![] : Fin 0 → Fin s.rank)) (hr : s.ReducesTo axes S_) (hu : 0 < S_.numel)
    (y : FVec Ideal s .f32) (init : IVec S_ 1)
    (e : Host.reduce IntOp.andi
          (cmpf .olt (Host.absf y) (broadcastInDim s ![] hb (constant S_ .f32 0x7F800000#32))) init hr hu ValueIdx.ix0 = 1#1)
    (i : s.Idx) : ∃ v : ℝ, y i = (v : EReal) := by
  have hi := Host.reduce_andi_all _ init hr hu ValueIdx.ix0 e i
  apply real_of_abs_lt_top
  rw [← inf_word]
  exact hi

/-- The precondition gives a real witness for every entry of both argument arrays. -/
theorem finite_of_pre [Cert.Pre_finite_inputs.Facts] (x : FVec Ideal S64x1024x768 .f32) (A : FVec Ideal S768x768 .f32)
    (h : Cert.Pre_finite_inputs.fn (F := Ideal) x A = fun _ => 1#1) :
    (∀ i : S64x1024x768.Idx, ∃ v : ℝ, x i = (v : EReal)) ∧ (∀ i : S768x768.Idx, ∃ v : ℝ, A i = (v : EReal)) := by
  have h0 := congrFun h ValueIdx.ix0
  unfold Cert.Pre_finite_inputs.fn at h0
  dsimp only at h0
  obtain ⟨hx, hA⟩ := IntOp.andi_eq_one.1 h0
  exact ⟨fun i => real_of_all_lt_inf _ _ _ x _ hx i, fun i => real_of_all_lt_inf _ _ _ A _ hA i⟩

end Cert.Pre_finite_inputs.Finite

end
-- ==== Proof.lean ====
/-
  The pairwise bilinear form D[b,i,j] = (h_i − h_j)ᵀ A (h_i − h_j), h = the rows of sequence b, computed two ways.

  The reference expands it: with c i j = h_iᵀ A h_j it forms c i i + c j j − c i j − c j i, picking the diagonal c j j
  out of the cross terms by a sum over an identity mask. The kernel symmetrises first: with S = A + Aᵀ (prepared once
  outside the grid) it forms, per sequence, q = h S, the half quadratic forms ½ Σ_d q[i,d] h[i,d], the products
  Σ_d q[i,d] h[j,d], and writes half i + half j − product i j off the diagonal and 0 on it.

  For real entries the two agree: h_iᵀ S h_j = c i j + c j i, so ½ h_iᵀ S h_i = c i i, and on the diagonal the expanded
  form is c i i + c i i − c i i − c i i = 0. Both distributivity and x − x = 0 fail at ±∞ in the extended reals, so the
  equality uses the precondition that every input entry is finite.

  The pieces: the kernel's result array as one function of its arguments (from the block each grid point writes), the
  reference's result read index by index, the precondition read as "every entry is a real number", and the algebra over the
  reals. The kernel's idealisation rewrote nothing, and the three programs' argument arrays end unchanged by their runs.
-/
import proofs.«145885_j4148938408316_2_alg».proof.Defs
import proofs.«145885_j4148938408316_2_alg».proof.Proof.Gen.Kernel
import proofs.«145885_j4148938408316_2_alg».proof.Proof.Gen.Kernel.Frame
import proofs.«145885_j4148938408316_2_alg».proof.Proof.Gen.KernelIdeal
import proofs.«145885_j4148938408316_2_alg».proof.Proof.Gen.KernelIdeal.Frame
import proofs.«145885_j4148938408316_2_alg».proof.Proof.Gen.KernelIdeal.Value
import proofs.«145885_j4148938408316_2_alg».proof.Proof.Gen.ReferenceIdeal
import proofs.«145885_j4148938408316_2_alg».proof.Proof.Gen.ReferenceIdeal.Run
import proofs.«145885_j4148938408316_2_alg».proof.Proof.Gen.ReferenceIdeal.Read
import proofs.«145885_j4148938408316_2_alg».proof.Proof.Gen.Pre_finite_inputs
import proofs.«145885_j4148938408316_2_alg».proof.Proof.KerArray
import proofs.«145885_j4148938408316_2_alg».proof.Proof.RefRead
import proofs.«145885_j4148938408316_2_alg».proof.Proof.Algebra
import proofs.«145885_j4148938408316_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The expanded pairwise form as a function of the whole argument arrays: entry (b, i, j) is that of rows i and j of
    sequence b under A. -/
def Gref (x : FVec Ideal Cert.ReferenceIdeal.S64x1024x768 .f32) (A : FVec Ideal Cert.ReferenceIdeal.S768x768 .f32) :
    FVec Ideal Cert.ReferenceIdeal.S64x1024x1024 .f32 := fun o =>
  Cert.PairForm.refDist (fun (i : Fin 1024) (e : Fin 768) => x (ix3 (o 0) i e)) (fun (d e : Fin 768) => A (ix2 d e)) (o 1) (o 2)

/-- The reference's last stage is that function. -/
theorem ref_eq (x : FVec Ideal Cert.ReferenceIdeal.S64x1024x768 .f32) (A : FVec Ideal Cert.ReferenceIdeal.S768x768 .f32) :
    Cert.ReferenceIdeal.Read.val_main_v16 (F := Ideal) x A = Gref x A := by
  funext o
  obtain ⟨b, i, j, rfl⟩ : ∃ (b : Fin 64) (i j : Fin 1024), o = ix3 b i j := ⟨o 0, o 1, o 2, eq_ix3 o⟩
  exact Cert.ReferenceIdeal.RefValue.val_apply x A b i j

/-- On arrays of real numbers the kernel's function and the reference's are the same array. -/
theorem ker_eq_ref (x : FVec Ideal Cert.KernelIdeal.S64x1024x768 .f32) (A : FVec Ideal Cert.KernelIdeal.S768x768 .f32)
    (hx : ∀ i, ∃ v : ℝ, x i = (v : EReal)) (hA : ∀ i, ∃ v : ℝ, A i = (v : EReal)) :
    Cert.KernelIdeal.KerValue.Gker x A = Gref x A := by
  funext o
  obtain ⟨b, i, j, rfl⟩ : ∃ (b : Fin 64) (i j : Fin 1024), o = ix3 b i j := ⟨o 0, o 1, o 2, eq_ix3 o⟩
  exact Cert.PairForm.kerDist_eq_refDist (fun (i : Fin 1024) (e : Fin 768) => x (ix3 b i e)) (fun (d e : Fin 768) => A (ix2 d e))
    (fun i e => hx _) (fun d e => hA _) i j

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten for its reading over the extended reals. -/
theorem preserves : Cert.preserves_Kernel_KernelIdeal := trivial

/-- Both runs end with the result array at the kernel's function of the arguments: the kernel's by its blocks, the
    reference's because, the arguments agreeing and every entry being a real number, its expanded form is the same array. -/
theorem algebraic : Cert.algebraic_KernelIdeal_ReferenceIdeal := by
  intro m ρ m' ρ' hpre hagree
  refine ⟨fun c => Cert.KernelIdeal.KerValue.Gker (Cert.KernelIdeal.KerValue.argX m c) (Cert.KernelIdeal.KerValue.argA m c),
    Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hA⟩ := Cert.Pre_finite_inputs.Finite.finite_of_pre _ _ (hpre c)
  rw [(hagree c).1, (hagree c).2, Cert.ReferenceIdeal.Read.val_main_v16_eq, ref_eq]
  exact (ker_eq_ref _ _ hx hA).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
